-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x320000 : Shape := ⟨2, ![2, 320000]⟩
abbrev S256x256 : Shape := ⟨2, ![256, 256]⟩
abbrev S256 : Shape := ⟨1, ![256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S32x64 : Shape := ⟨2, ![32, 64]⟩
abbrev S32 : Shape := ⟨1, ![32]⟩
abbrev S3x32 : Shape := ⟨2, ![3, 32]⟩
abbrev S3 : Shape := ⟨1, ![3]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S3x32 : S_.BroadcastsInDim S3x32 (![] : Fin 0 → Fin S3x32.rank)
  reducesTo_S3x32_S_d0_1 : S3x32.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_arg12 : FVec F S3 .f32) (main_v48 : IVec S_ 1) (main_v49 : FVec F S3x32 .f32) (main_v50 : FVec F S3x32 .f32) : IVec S_ 1 :=
  let main_v51 : IVec S3x32 1 := cmpf .olt main_v49 main_v50
  let main_c_19 : IVec S_ 1 := constantI S_ 1 1#1
  let main_v52 : IVec S_ 1 := (fun x v => Host.reduce IntOp.andi x v reducesTo_S3x32_S_d0_1 h_S_) main_v51 main_c_19
  let main_v53 : IVec S_ 1 := andi main_v48 main_v52
  let main_v54 : FVec F S3 .f32 := Host.absf main_arg12
  let main_cst_20 : FVec F S_ .f32 := constant S_ .f32 0x7F800000#32
  let main_v55 : FVec F S3 .f32 := broadcastInDim S3 ![] bcast_S_S3 main_cst_20
  let main_v56 : IVec S3 1 := cmpf .olt main_v54 main_v55
  let main_c_21 : IVec S_ 1 := constantI S_ 1 1#1
  let main_v57 : IVec S_ 1 := (fun x v => Host.reduce IntOp.andi x v reducesTo_S3_S_d0 h_S_) main_v56 main_c_21
  let main_v58 : IVec S_ 1 := andi main_v53 main_v57
  main_v58

def fn_part2 {F : FTy → Type} [FloatOps F] (main_arg8 : FVec F S64 .f32) (main_arg9 : FVec F S32x64 .f32) (main_arg10 : FVec F S32 .f32) (main_arg11 : FVec F S3x32 .f32) (main_arg12 : FVec F S3 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S32x64 .f32 := Host.absf main_arg9
  let main_cst_14 : FVec F S_ .f32 := constant S_ .f32 0x7F800000#32
  let main_v40 : FVec F S32x64 .f32 := broadcastInDim S32x64 ![] bcast_S_S32x64 main_cst_14
  let main_v41 : IVec S32x64 1 := cmpf .olt main_v39 main_v40
  let main_c_15 : IVec S_ 1 := constantI S_ 1 1#1
  let main_v42 : IVec S_ 1 := (fun x v => Host.reduce IntOp.andi x v reducesTo_S32x64_S_d0_1 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S3x32 .f32 := Host.absf main_arg11
  let main_cst_18 : FVec F S_ .f32 := constant S_ .f32 0x7F800000#32
  let main_v50 : FVec F S3x32 .f32 := broadcastInDim S3x32 ![] bcast_S_S3x32 main_cst_18
  fn_part3 (F := F) main_arg12 main_v48 main_v49 main_v50

def fn_part1 {F : FTy → Type} [FloatOps F] (main_arg5 : FVec F S128x256 .f32) (main_arg6 : FVec F S128 .f32) (main_arg7 : FVec F S64x128 .f32) (main_arg8 : FVec F S64 .f32) (main_arg9 : FVec F S32x64 .f32) (main_arg10 : FVec F S32 .f32) (main_arg11 : FVec F S3x32 .f32) (main_arg12 : FVec F S3 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S10000x256 .f32) (main_arg1 : IVec S2x320000 32) (main_arg2 : FVec F S256x256 .f32) (main_arg3 : FVec F S256 .f32) (main_arg4 : FVec F S256x256 .f32) (main_arg5 : FVec F S128x256 .f32) (main_arg6 : FVec F S128 .f32) (main_arg7 : FVec F S64x128 .f32) (main_arg8 : FVec F S64 .f32) (main_arg9 : FVec F S32x64 .f32) (main_arg10 : FVec F S32 .f32) (main_arg11 : FVec F S3x32 .f32) (main_arg12 : FVec F S3 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_arg10 main_arg11 main_arg12 main_v13 main_v16
-- ==== Kernel.lean ====
abbrev S10000x256 : Shape := ⟨2, ![10000, 256]⟩
abbrev S2x320000 : Shape := ⟨2, ![2, 320000]⟩
abbrev S256x256 : Shape := ⟨2, ![256, 256]⟩
abbrev S256 : Shape := ⟨1, ![256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S32x64 : Shape := ⟨2, ![32, 64]⟩
abbrev S32 : Shape := ⟨1, ![32]⟩
abbrev S3x32 : Shape := ⟨2, ![3, 32]⟩
abbrev S3 : Shape := ⟨1, ![3]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S10000 : Shape := ⟨1, ![10000]⟩
abbrev S10000x1 : Shape := ⟨2, ![10000, 1]⟩
abbrev S256x128 : Shape := ⟨2, ![256, 128]⟩
abbrev S128x64 : Shape := ⟨2, ![128, 64]⟩
abbrev S64x32 : Shape := ⟨2, ![64, 32]⟩
abbrev S32x3 : Shape := ⟨2, ![32, 3]⟩
abbrev S1x256 : Shape := ⟨2, ![1, 256]⟩
abbrev S1x128 : Shape := ⟨2, ![1, 128]⟩
abbrev S1x64 : Shape := ⟨2, ![1, 64]⟩
abbrev S1x32 : Shape := ⟨2, ![1, 32]⟩
abbrev S1x3 : Shape := ⟨2, ![1, 3]⟩
abbrev S10000x3 : Shape := ⟨2, ![10000, 3]⟩
abbrev S2000x256 : Shape := ⟨2, ![2000, 256]⟩
abbrev S2000x3 : Shape := ⟨2, ![2000, 3]⟩
abbrev S2000x128 : Shape := ⟨2, ![2000, 128]⟩
abbrev S2000x64 : Shape := ⟨2, ![2000, 64]⟩
abbrev S2000x32 : Shape := ⟨2, ![2000, 32]⟩

abbrev nBuf : Space → Nat
  | .hbm => 54
  | .vmem => 17
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S128x256, .f32⟩
  | .hbm, ⟨6, _⟩ => ⟨S128, .f32⟩
  | .hbm, ⟨7, _⟩ => ⟨S64x128, .f32⟩
  | .hbm, ⟨8, _⟩ => ⟨S64, .f32⟩
  | .hbm, ⟨9, _⟩ => ⟨S32x64, .f32⟩
  | .hbm, ⟨10, _⟩ => ⟨S32, .f32⟩
  | .hbm, ⟨11, _⟩ => ⟨S3x32, .f32⟩
  | .hbm, ⟨12, _⟩ => ⟨S3, .f32⟩
  | .hbm, ⟨13, _⟩ => ⟨S1x320000, .i32⟩
  | .hbm, ⟨14, _⟩ => ⟨S320000, .i32⟩
  | .hbm, ⟨15, _⟩ => ⟨S1x320000, .i32⟩
  | .hbm, ⟨16, _⟩ => ⟨S320000, .i32⟩
  | .hbm, ⟨17, _⟩ => ⟨S_, .i32⟩
  | .hbm, ⟨18, _⟩ => ⟨S320000, .i32⟩
  | .hbm, ⟨19, _⟩ => ⟨S320000, .i1⟩
  | .hbm, ⟨20, _⟩ => ⟨S_, .i32⟩
  | .hbm, ⟨21, _⟩ => ⟨S320000, .i32⟩
  | .hbm, ⟨22, _⟩ => ⟨S320000, .i32⟩
  | .hbm, ⟨23, _⟩ => ⟨S320000, .i32⟩
  | .hbm, ⟨24, _⟩ => ⟨S320000x1, .i32⟩
  | .hbm, ⟨25, _⟩ => ⟨S320000x256, .f32⟩
  | .hbm, ⟨26, _⟩ => ⟨S_, .f32⟩
  | .hbm, ⟨27, _⟩ => ⟨S10000x256, .f32⟩
  | .hbm, ⟨28, _⟩ => ⟨S320000x1, .i32⟩
  | .hbm, ⟨29, _⟩ => ⟨S10000x256, .f32⟩
  | .hbm, ⟨30, _⟩ => ⟨S_, .f32⟩
  | .hbm, ⟨31, _⟩ => ⟨S320000, .f32⟩
  | .hbm, ⟨32, _⟩ => ⟨S_, .f32⟩
  | .hbm, ⟨33, _⟩ => ⟨S10000, .f32⟩
  | .hbm, ⟨34, _⟩ => ⟨S320000x1, .i32⟩
  | .hbm, ⟨35, _⟩ => ⟨S10000, .f32⟩
  | .hbm, ⟨36, _⟩ => ⟨S_, .f32⟩
  | .hbm, ⟨37, _⟩ => ⟨S10000, .f32⟩
  | .hbm, ⟨38, _⟩ => ⟨S10000, .f32⟩
  | .hbm, ⟨39, _⟩ => ⟨S10000x1, .f32⟩
  | .hbm, ⟨40, _⟩ => ⟨S10000x256, .f32⟩
  | .hbm, ⟨41, _⟩ => ⟨S10000x256, .f32⟩
  | .hbm, ⟨42, _⟩ => ⟨S256x256, .f32⟩
  | .hbm, ⟨43, _⟩ => ⟨S256x256, .f32⟩
  | .hbm, ⟨44, _⟩ => ⟨S256x128, .f32⟩
  | .hbm, ⟨45, _⟩ => ⟨S128x64, .f32⟩
  | .hbm, ⟨46, _⟩ => ⟨S64x32, .f32⟩
  | .hbm, ⟨47, _⟩ => ⟨S32x3, .f32⟩
  | .hbm, ⟨48, _⟩ => ⟨S1x256, .f32⟩
  | .hbm, ⟨49, _⟩ => ⟨S1x128, .f32⟩
  | .hbm, ⟨50, _⟩ => ⟨S1x64, .f32⟩
  | .hbm, ⟨51, _⟩ => ⟨S1x32, .f32⟩
  | .hbm, ⟨52, _⟩ => ⟨S1x3, .f32⟩
  | .hbm, ⟨53, _⟩ => ⟨S10000x3, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S256x128, .f32⟩
  | .local _ .vmem, ⟨8, _⟩ => ⟨S1x128, .f32⟩
  | .local _ .vmem, ⟨9, _⟩ => ⟨S128x64, .f32⟩
  | .local _ .vmem, ⟨10, _⟩ => ⟨S1x64, .f32⟩
  | .local _ .vmem, ⟨11, _⟩ => ⟨S64x32, .f32⟩
  | .local _ .vmem, ⟨12, _⟩ => ⟨S1x32, .f32⟩
  | .local _ .vmem, ⟨13, _⟩ => ⟨S32x3, .f32⟩
  | .local _ .vmem, ⟨14, _⟩ => ⟨S1x3, .f32⟩
  | .local _ .vmem, ⟨15, _⟩ => ⟨S2000x3, .f32⟩
  | .local _ .vmem, ⟨16, _⟩ => ⟨S2000x3, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x3 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x3 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2000x3 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S10000x256 : S_.BroadcastsInDim S10000x256 (![] : Fin 0 → Fin S10000x256.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  transposes_S256x256_S256x256_1_0 : S256x256.Transposes [1, 0] S256x256
  transposes_S128x256_S256x128_1_0 : S128x256.Transposes [1, 0] S256x128
  transposes_S64x128_S128x64_1_0 : S64x128.Transposes [1, 0] S128x64
  transposes_S32x64_S64x32_1_0 : S32x64.Transposes [1, 0] S64x32
  transposes_S3x32_S32x3_1_0 : S3x32.Transposes [1, 0] S32x3
  shapeCasts_S256_S1x256 : S256.ShapeCasts S1x256
  shapeCasts_S128_S1x128 : S128.ShapeCasts S1x128
  shapeCasts_S64_S1x64 : S64.ShapeCasts S1x64
  shapeCasts_S32_S1x32 : S32.ShapeCasts S1x32
  shapeCasts_S3_S1x3 : S3.ShapeCasts S1x3
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S32x3_S32x3_0_0 : ∀ a, (![0, 0] : Fin 2 → Nat) a + S32x3.size a ≤ S32x3.size a
  h_S32x3 : 0 < S32x3.numel
  shapeCasts_S32x3_S32x3 : S32x3.ShapeCasts S32x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S2000x3 : S1x3.Broadcasts S2000x3
  inb_S2000x3_S2000x3_0_0 : ∀ a, (![0, 0] : Fin 2 → Nat) a + S2000x3.size a ≤ S2000x3.size a
  h_S2000x3 : 0 < S2000x3.numel
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  scatter_S10000_S320000x1_S320000_n_0_0_1_wf : ScatterDims.WF S10000 S320000x1 S320000 [] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  dot_S2000x128_S128x64_S2000x64_1_0_0_1_n_n_wf : DotDims.WF S2000x128 S128x64 S2000x64 [1] [0] [0] [1] [] []
  dot_S2000x64_S64x32_S2000x32_1_0_0_1_n_n_wf : DotDims.WF S2000x64 S64x32 S2000x32 [1] [0] [0] [1] [] []
  dot_S2000x32_S32x3_S2000x3_1_0_0_1_n_n_wf : DotDims.WF S2000x32 S32x3 S2000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S10000x256.size a
  hwx0_0 : ∀ i : grid0.Coords, EltTy.bits .f32 = 32 ∨ (Rect.block (s := S10000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S10000x256.size a
  hwx0_1 : ∀ i : grid0.Coords, EltTy.bits .f32 = 32 ∨ (Rect.block (s := S10000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .f32 = 32 ∨ (Rect.block (s := S128x64) S128x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x32.size a ≤ S64x32.size a
  hwx0_9 : ∀ i : grid0.Coords, EltTy.bits .f32 = 32 ∨ (Rect.block (s := S64x32) S64x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x32.size a ≤ S1x32.size a
  hwx0_10 : ∀ i : grid0.Coords, EltTy.bits .f32 = 32 ∨ (Rect.block (s := S1x32) S1x32.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S32x3.size a ≤ S32x3.size a
  hwx0_11 : ∀ i : grid0.Coords, EltTy.bits .f32 = 32 ∨ (Rect.block (s := S32x3) S32x3.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x3.size a ≤ S1x3.size a
  hwx0_12 : ∀ i : grid0.Coords, EltTy.bits .f32 = 32 ∨ (Rect.block (s := S1x3) S1x3.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2000x3.size a ≤ S10000x3.size a
  hwx0_13 : ∀ i : grid0.Coords, EltTy.bits .f32 = 32 ∨ (Rect.block (s := S10000x3) S2000x3.size (cc0_transform_13 i) (hinb0_13 i)).WholeWords (EltTy.packing .f32)

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def dot_S2000x32_S32x3_S2000x3_1_0_0_1_n_n : DotDims S2000x32 S32x3 S2000x3 where
  lhsContracting := [1]
  rhsContracting := [0]
  lhsNonContracting := [0]
  rhsNonContracting := [1]
  lhsBatch := []
  rhsBatch := []
  wf := dot_S2000x32_S32x3_S2000x3_1_0_0_1_n_n_wf

abbrev win0_0 : Pipeline.Window sig grid0 :=
  Pipeline.Window.ofSpec (Memref.whole main_v22) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v31) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v27) S64x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v32) S1x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v28) S32x3.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v33) S1x3.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v34) S2000x3.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S10000x256 : Shape := ⟨2, ![10000, 256]⟩
abbrev S2x320000 : Shape := ⟨2, ![2, 320000]⟩
abbrev S256x256 : Shape := ⟨2, ![256, 256]⟩
abbrev S256 : Shape := ⟨1, ![256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S32x64 : Shape := ⟨2, ![32, 64]⟩
abbrev S32 : Shape := ⟨1, ![32]⟩
abbrev S3x32 : Shape := ⟨2, ![3, 32]⟩
abbrev S3 : Shape := ⟨1, ![3]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S10000 : Shape := ⟨1, ![10000]⟩
abbrev S10000x1 : Shape := ⟨2, ![10000, 1]⟩
abbrev S1x256 : Shape := ⟨2, ![1, 256]⟩
abbrev S256x128 : Shape := ⟨2, ![256, 128]⟩
abbrev S10000x128 : Shape := ⟨2, ![10000, 128]⟩
abbrev S1x128 : Shape := ⟨2, ![1, 128]⟩
abbrev S128x64 : Shape := ⟨2, ![128, 64]⟩
abbrev S10000x64 : Shape := ⟨2, ![10000, 64]⟩
abbrev S1x64 : Shape := ⟨2, ![1, 64]⟩
abbrev S64x32 : Shape := ⟨2, ![64, 32]⟩
abbrev S10000x32 : Shape := ⟨2, ![10000, 32]⟩
abbrev S1x32 : Shape := ⟨2, ![1, 32]⟩
abbrev S32x3 : Shape := ⟨2, ![32, 3]⟩
abbrev S10000x3 : Shape := ⟨2, ![10000, 3]⟩
abbrev S1x3 : Shape := ⟨2, ![1, 3]⟩

abbrev nBuf : Space → Nat
  | .hbm => 82
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S128x256, .f32⟩
  | .hbm, ⟨6, _⟩ => ⟨S128, .f32⟩
  | .hbm, ⟨7, _⟩ => ⟨S64x128, .f32⟩
  | .hbm, ⟨8, _⟩ => ⟨S64, .f32⟩
  | .hbm, ⟨9, _⟩ => ⟨S32x64, .f32⟩
  | .hbm, ⟨10, _⟩ => ⟨S32, .f32⟩
  | .hbm, ⟨11, _⟩ => ⟨S3x32, .f32⟩
  | .hbm, ⟨12, _⟩ => ⟨S3, .f32⟩
  | .hbm, ⟨13, _⟩ => ⟨S1x320000, .i32⟩
  | .hbm, ⟨14, _⟩ => ⟨S320000, .i32⟩
  | .hbm, ⟨15, _⟩ => ⟨S1x320000, .i32⟩
  | .hbm, ⟨16, _⟩ => ⟨S320000, .i32⟩
  | .hbm, ⟨17, _⟩ => ⟨S_, .i32⟩
  | .hbm, ⟨18, _⟩ => ⟨S320000, .i32⟩
  | .hbm, ⟨19, _⟩ => ⟨S320000, .i1⟩
  | .hbm, ⟨20, _⟩ => ⟨S_, .i32⟩
  | .hbm, ⟨21, _⟩ => ⟨S320000, .i32⟩
  | .hbm, ⟨22, _⟩ => ⟨S320000, .i32⟩
  | .hbm, ⟨23, _⟩ => ⟨S320000, .i32⟩
  | .hbm, ⟨24, _⟩ => ⟨S320000x1, .i32⟩
  | .hbm, ⟨25, _⟩ => ⟨S320000x256, .f32⟩
  | .hbm, ⟨26, _⟩ => ⟨S_, .f32⟩
  | .hbm, ⟨27, _⟩ => ⟨S10000x256, .f32⟩
  | .hbm, ⟨28, _⟩ => ⟨S320000x1, .i32⟩
  | .hbm, ⟨29, _⟩ => ⟨S10000x256, .f32⟩
  | .hbm, ⟨30, _⟩ => ⟨S_, .f32⟩
  | .hbm, ⟨31, _⟩ => ⟨S320000, .f32⟩
  | .hbm, ⟨32, _⟩ => ⟨S_, .f32⟩
  | .hbm, ⟨33, _⟩ => ⟨S10000, .f32⟩
  | .hbm, ⟨34, _⟩ => ⟨S320000x1, .i32⟩
  | .hbm, ⟨35, _⟩ => ⟨S10000, .f32⟩
  | .hbm, ⟨36, _⟩ => ⟨S_, .f32⟩
  | .hbm, ⟨37, _⟩ => ⟨S10000, .f32⟩
  | .hbm, ⟨38, _⟩ => ⟨S10000, .f32⟩
  | .hbm, ⟨39, _⟩ => ⟨S10000x1, .f32⟩
  | .hbm, ⟨40, _⟩ => ⟨S10000x256, .f32⟩
  | .hbm, ⟨41, _⟩ => ⟨S10000x256, .f32⟩
  | .hbm, ⟨42, _⟩ => ⟨S256x256, .f32⟩
  | .hbm, ⟨43, _⟩ => ⟨S10000x256, .f32⟩
  | .hbm, ⟨44, _⟩ => ⟨S1x256, .f32⟩
  | .hbm, ⟨45, _⟩ => ⟨S10000x256, .f32⟩
  | .hbm, ⟨46, _⟩ => ⟨S10000x256, .f32⟩
  | .hbm, ⟨47, _⟩ => ⟨S256x256, .f32⟩
  | .hbm, ⟨48, _⟩ => ⟨S10000x256, .f32⟩
  | .hbm, ⟨49, _⟩ => ⟨S10000x256, .f32⟩
  | .hbm, ⟨50, _⟩ => ⟨S_, .f32⟩
  | .hbm, ⟨51, _⟩ => ⟨S10000x256, .f32⟩
  | .hbm, ⟨52, _⟩ => ⟨S10000x256, .f32⟩
  | .hbm, ⟨53, _⟩ => ⟨S256x128, .f32⟩
  | .hbm, ⟨54, _⟩ => ⟨S10000x128, .f32⟩
  | .hbm, ⟨55, _⟩ => ⟨S1x128, .f32⟩
  | .hbm, ⟨56, _⟩ => ⟨S10000x128, .f32⟩
  | .hbm, ⟨57, _⟩ => ⟨S10000x128, .f32⟩
  | .hbm, ⟨58, _⟩ => ⟨S_, .f32⟩
  | .hbm, ⟨59, _⟩ => ⟨S10000x128, .f32⟩
  | .hbm, ⟨60, _⟩ => ⟨S10000x128, .f32⟩
  | .hbm, ⟨61, _⟩ => ⟨S128x64, .f32⟩
  | .hbm, ⟨62, _⟩ => ⟨S10000x64, .f32⟩
  | .hbm, ⟨63, _⟩ => ⟨S1x64, .f32⟩
  | .hbm, ⟨64, _⟩ => ⟨S10000x64, .f32⟩
  | .hbm, ⟨65, _⟩ => ⟨S10000x64, .f32⟩
  | .hbm, ⟨66, _⟩ => ⟨S_, .f32⟩
  | .hbm, ⟨67, _⟩ => ⟨S10000x64, .f32⟩
  | .hbm, ⟨68, _⟩ => ⟨S10000x64, .f32⟩
  | .hbm, ⟨69, _⟩ => ⟨S64x32, .f32⟩
  | .hbm, ⟨70, _⟩ => ⟨S10000x32, .f32⟩
  | .hbm, ⟨71, _⟩ => ⟨S1x32, .f32⟩
  | .hbm, ⟨72, _⟩ => ⟨S10000x32, .f32⟩
  | .hbm, ⟨73, _⟩ => ⟨S10000x32, .f32⟩
  | .hbm, ⟨74, _⟩ => ⟨S_, .f32⟩
  | .hbm, ⟨75, _⟩ => ⟨S10000x32, .f32⟩
  | .hbm, ⟨76, _⟩ => ⟨S10000x32, .f32⟩
  | .hbm, ⟨77, _⟩ => ⟨S32x3, .f32⟩
  | .hbm, ⟨78, _⟩ => ⟨S10000x3, .f32⟩
  | .hbm, ⟨79, _⟩ => ⟨S1x3, .f32⟩
  | .hbm, ⟨80, _⟩ => ⟨S10000x3, .f32⟩
  | .hbm, ⟨81, _⟩ => ⟨S10000x3, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call0_cst : Ref sig .tc := ⟨.hbm, 50, rfl⟩
abbrev main_call0_v0 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_call1_cst : Ref sig .tc := ⟨.hbm, 58, rfl⟩
abbrev main_call1_v0 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_call2_cst : Ref sig .tc := ⟨.hbm, 66, rfl⟩
abbrev main_call2_v0 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call3_cst : Ref sig .tc := ⟨.hbm, 74, rfl⟩
abbrev main_call3_v0 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S10000x256 : S_.BroadcastsInDim S10000x256 (![] : Fin 0 → Fin S10000x256.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  transposes_S256x256_S256x256_1_0 : S256x256.Transposes [1, 0] S256x256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  transposes_S128x256_S256x128_1_0 : S128x256.Transposes [1, 0] S256x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  transposes_S64x128_S128x64_1_0 : S64x128.Transposes [1, 0] S128x64
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  transposes_S32x64_S64x32_1_0 : S32x64.Transposes [1, 0] S64x32
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  bcast_S_S10000x32 : S_.BroadcastsInDim S10000x32 (![] : Fin 0 → Fin S10000x32.rank)
  transposes_S3x32_S32x3_1_0 : S3x32.Transposes [1, 0] S32x3
  bcast_S3_S1x3_1 : S3.BroadcastsInDim S1x3 (![1] : Fin 1 → Fin S1x3.rank)
  bcast_S1x3_S10000x3_0_1 : S1x3.BroadcastsInDim S10000x3 (![0, 1] : Fin 2 → Fin S10000x3.rank)
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  scatter_S10000_S320000x1_S320000_n_0_0_1_wf : ScatterDims.WF S10000 S320000x1 S320000 [] [0] [0] 1
  dot_S10000x256_S256x256_S10000x256_1_0_0_1_n_n_wf : DotDims.WF S10000x256 S256x256 S10000x256 [1] [0] [0] [1] [] []
  dot_S10000x256_S256x128_S10000x128_1_0_0_1_n_n_wf : DotDims.WF S10000x256 S256x128 S10000x128 [1] [0] [0] [1] [] []
  dot_S10000x128_S128x64_S10000x64_1_0_0_1_n_n_wf : DotDims.WF S10000x128 S128x64 S10000x64 [1] [0] [0] [1] [] []
  dot_S10000x64_S64x32_S10000x32_1_0_0_1_n_n_wf : DotDims.WF S10000x64 S64x32 S10000x32 [1] [0] [0] [1] [] []
  dot_S10000x32_S32x3_S10000x3_1_0_0_1_n_n_wf : DotDims.WF S10000x32 S32x3 S10000x3 [1] [0] [0] [1] [] []

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x32_S32x3_S10000x3_1_0_0_1_n_n : DotDims S10000x32 S32x3 S10000x3 where
  lhsContracting := [1]
  rhsContracting := [0]
  lhsNonContracting := [0]
  rhsNonContracting := [1]
  lhsBatch := []
  rhsBatch := []
  wf := dot_S10000x32_S32x3_S10000x3_1_0_0_1_n_n_wf

class Facts : Prop extends Facts₀ where

variable [Facts]
-- ==== Proof.LibDenseRows.lean ====
/-
  Row-wise dense algebra read at an index given by coordinates, at the ideal values: a plain two-dimensional
  contraction `[M, K] · [K, N]` (the kernel's matrix product into a zero accumulator and the host's `dot_general`) as a sum
  over `k : Fin K` of the left operand's row times the right operand's column; a bias vector `[N]` laid along every row of
  `[M, N]` (both spellings: cast to one row then broadcast, and two `broadcast_in_dim`s); a concatenation of two blocks side
  by side along the columns; and a sum along the columns of `[M, N]` (the lane reduction and the host's `reduce`), plain
  and laid back out as a column `[M, 1]` that is broadcast over the columns.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Cert.DenseRows

open Idealize.ShloMosaic Idealize.ShloMosaic.ValueIdx
open scoped BigOperators

/-! ## A plain contraction `[M, K] · [K, N]` -/

/-- For dimension numbers that contract the left operand's columns with the right operand's rows and keep the left rows and
    the right columns in place, the sum over the contraction index at `(r, c)` is the sum over `k : Fin K` of the left
    operand at `(r, k)` times the right operand at `(k, c)`. -/
theorem sum_contr_plain {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : (⟨2, ![M, K]⟩ : Shape).Idx → EReal) (W : (⟨2, ![K, N]⟩ : Shape).Idx → EReal) (r : Fin M) (c : Fin N) :
    ∑ k : D.contr.Idx, A (D.lhsIdx (ix2 r c) k) * W (D.rhsIdx (ix2 r c) k) = ∑ k : Fin K, A (ix2 r k) * W (ix2 k c) := by
  rw [← Equiv.sum_comp (contrEquiv1 D K hrank hsize).symm]
  refine Finset.sum_congr rfl fun k _ => ?_
  have e1 : D.lhsIdx (ix2 r c) ((contrEquiv1 D K hrank hsize).symm k) = ix2 r k := by
    funext a; apply Fin.ext
    match a with
    | ⟨0, _⟩ => exact hl0 _ _
    | ⟨1, _⟩ => exact (D.lhsIdx_val_of_single hl _ _).trans (contrEquiv1_symm_val D K hrank hsize k)
  have e2 : D.rhsIdx (ix2 r c) ((contrEquiv1 D K hrank hsize).symm k) = ix2 k c := by
    funext a; apply Fin.ext
    match a with
    | ⟨0, _⟩ => exact (D.rhsIdx_val_of_single hr _ _).trans (contrEquiv1_symm_val D K hrank hsize k)
    | ⟨1, _⟩ => exact hr1 _ _
  rw [e1, e2]

/-- The kernel's matrix product into the zero accumulator, at `(r, c)`. -/
theorem matmul_zero_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    matmul D none A W (constant (F := Ideal) ⟨2, ![M, N]⟩ .f32 0x00000000#32) (ix2 r c) = ∑ k : Fin K, A (ix2 r k) * W (ix2 k c) :=
  (Ideal.matmul_constant_zero_apply D none A W (ix2 r c)).trans (sum_contr_plain D hl hr hrank hsize hl0 hr1 A W r c)

/-- The host's `dot_general` with the same dimension numbers, at `(r, c)`. -/
theorem dotGeneral_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    Host.dotGeneral D none A W (ix2 r c) = ∑ k : Fin K, A (ix2 r k) * W (ix2 k c) :=
  (Ideal.dotGeneral_apply D none .single A W (ix2 r c)).trans (sum_contr_plain D hl hr hrank hsize hl0 hr1 A W r c)

/-! ## A bias vector along every row -/

variable {α : Type}

/-- A vector `[N]` cast to one row `[1, N]` and broadcast down `M` rows reads, at `(r, c)`, the vector at `c`. -/
theorem rowBias_cast_apply {M N : ℕ} (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (r : Fin M) (c : Fin N) :
    broadcastTo ⟨2, ![M, N]⟩ (shapeCast ⟨2, ![1, N]⟩ b h1) h2 (ix2 r c) = b (ix1 c) :=
  (broadcastTo_1b_ab_apply _ h2 r c).trans (shapeCast_a_1a_apply b h1 0 c)

/-- A vector `[N]` placed on axis 1 of `[1, N]` reads, at `(u, c)`, the vector at `c`. -/
theorem broadcastInDim_a_1a_apply {N : ℕ} (b : (⟨1, ![N]⟩ : Shape).Idx → α)
    (h : (⟨1, ![N]⟩ : Shape).BroadcastsInDim ⟨2, ![1, N]⟩ ![1]) (u : Fin 1) (c : Fin N) :
    broadcastInDim ⟨2, ![1, N]⟩ ![1] h b (ix2 u c) = b (ix1 c) := by
  refine broadcastInDim_apply ![1] h b (ix2 u c) (ix1 c) fun a => ?_
  match a with
  | ⟨0, _⟩ =>
    show c.val = if N = 1 then 0 else c.val
    split
    · have := c.isLt; omega
    · rfl

/-- The host's spelling of the same: two `broadcast_in_dim`s, `[N]` to `[1, N]` to `[M, N]`. -/
theorem rowBias_inDim_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 b) (ix2 r c) = b (ix1 c) :=
  (broadcastInDim_oneRow_apply h2 _ r c).trans (broadcastInDim_a_1a_apply b h1 0 c)

/-! ## Two blocks side by side -/

/-- Two blocks `[M, A]` and `[M, B]` concatenated along the columns: a column left of `A` reads the first block. -/
theorem concat_cols_left {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : k.val < A) :
    concatenate ⟨2, ![M, C]⟩ (1 : Fin 2) [⟨⟨2, ![M, A]⟩, x⟩, ⟨⟨2, ![M, B]⟩, y⟩] h (ix2 r k) = x (ix2 r ⟨k.val, hk⟩) :=
  concatenate_pair_apply_left (1 : Fin 2) x y h (ix2 r k) rfl (ix2 r ⟨k.val, hk⟩) fun b => by
    match b with
    | ⟨0, _⟩ => rfl
    | ⟨1, _⟩ => rfl

/-- … and a column from `A` on reads the second block, `A` columns to the left. -/
theorem concat_cols_right {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : A ≤ k.val)
    (hk' : k.val - A < B) :
    concatenate ⟨2, ![M, C]⟩ (1 : Fin 2) [⟨⟨2, ![M, A]⟩, x⟩, ⟨⟨2, ![M, B]⟩, y⟩] h (ix2 r k) = y (ix2 r ⟨k.val - A, hk'⟩) :=
  concatenate_pair_apply_right (1 : Fin 2) x y h (ix2 r k) rfl rfl (ix2 r ⟨k.val - A, hk'⟩)
    (fun b hb => by
      match b with
      | ⟨0, _⟩ => rfl
      | ⟨1, _⟩ => exact absurd rfl hb)
    (by show k.val - A + A = k.val; omega)

/-! ## A sum along the columns -/

/-- The lane reduction of `[M, N]` along its columns from the zero word, at row `r`. -/
theorem laneSum_apply {M N : ℕ} (src : FVec Ideal ⟨2, ![M, N]⟩ .f32) (h : (⟨2, ![M, N]⟩ : Shape).Reduces [(1 : Fin 2)] ⟨1, ![M]⟩)
    (hφ : FKind.Formats .f32) (hacc : (0x00000000#32 : BitVec 32) = FKind.add.neutral .f32 hφ)
    (hlift : ∀ (r : Fin M) (k : Fin N), h.lift (ix1 r) k = ix2 r k) (r : Fin M) :
    multiReduction .add [(1 : Fin 2)] ⟨1, ![M]⟩ src 0x00000000#32 h hφ hacc (ix1 r) = ∑ k : Fin N, src (ix2 r k) :=
  (Ideal.multiReduction_add_single src 0x00000000#32 h hφ hacc (ix1 r)).trans
    (Finset.sum_congr rfl fun k _ => congrArg src (hlift r k))

/-- The host's `reduce` with `add` along the columns from an initial scalar, at row `r`. -/
theorem hostRowSum_apply {M N : ℕ} (x : FVec Ideal ⟨2, ![M, N]⟩ .f32) (init : (⟨0, ![]⟩ : Shape).Idx → Ideal .f32)
    (h' : (⟨2, ![M, N]⟩ : Shape).ReducesTo [(1 : Fin 2)] ⟨1, ![M]⟩) (hu : 0 < (⟨0, ![]⟩ : Shape).numel)
    (h : (⟨2, ![M, N]⟩ : Shape).Reduces [(1 : Fin 2)] ⟨1, ![M]⟩)
    (hlift : ∀ (r : Fin M) (k : Fin N), h.lift (ix1 r) k = ix2 r k) (r : Fin M) :
    Host.reduceAdd x init h' hu (ix1 r) = init (Shape.Idx.first hu) + ∑ k : Fin N, x (ix2 r k) :=
  (hostReduceAdd_apply x init h' hu (ix1 r)).trans
    ((Ideal.hostReduceAdd_single h' h x _ (ix1 r)).trans
      (congrArg (init (Shape.Idx.first hu) + ·) (Finset.sum_congr rfl fun k _ => congrArg x (hlift r k))))

/-- A vector `[M]` placed on axis 0 of `[M, 1]` reads, at `(r, u)`, the vector at `r`. -/
theorem broadcastInDim_a_a1_apply {M : ℕ} (v : (⟨1, ![M]⟩ : Shape).Idx → α)
    (h : (⟨1, ![M]⟩ : Shape).BroadcastsInDim ⟨2, ![M, 1]⟩ ![0]) (r : Fin M) (u : Fin 1) :
    broadcastInDim ⟨2, ![M, 1]⟩ ![0] h v (ix2 r u) = v (ix1 r) := by
  refine broadcastInDim_apply ![0] h v (ix2 r u) (ix1 r) fun a => ?_
  match a with
  | ⟨0, _⟩ =>
    show r.val = if M = 1 then 0 else r.val
    split
    · have := r.isLt; omega
    · rfl

/-- A column `[M, 1]` laid over the columns of `[M, N]` by `broadcast_in_dim` reads, at `(r, c)`, the column at row `r`. -/
theorem broadcastInDim_a1_ab_apply {M N : ℕ} (v : (⟨2, ![M, 1]⟩ : Shape).Idx → α)
    (h : (⟨2, ![M, 1]⟩ : Shape).BroadcastsInDim ⟨2, ![M, N]⟩ ![0, 1]) (r : Fin M) (c : Fin N) :
    broadcastInDim ⟨2, ![M, N]⟩ ![0, 1] h v (ix2 r c) = v (ix2 r (0 : Fin 1)) := by
  refine broadcastInDim_apply ![0, 1] h v (ix2 r c) (ix2 r (0 : Fin 1)) fun a => ?_
  match a with
  | ⟨0, _⟩ =>
    show r.val = if M = 1 then 0 else r.val
    split
    · have := r.isLt; omega
    · rfl
  | ⟨1, _⟩ => rfl

end Cert.DenseRows

end
-- ==== Proof.LibDenseLayer.lean ====
/-
  Dense layers of a perceptron, row by row, on extended reals — general in the sizes.

  `lin h w b j = ∑ k, h k * w k j + b j` is one dense layer on a row `h` of `K` features with a weight table `w` (entry
  `w k j`: from input feature `k` to output feature `j`) and a bias row `b`; `act z v j = max (v j) z` the positive part
  against the zero word; `first` a two-operand first layer `(a·wl + bl) + x·wr` (a neighbourhood term and a root term).
  The lemmas read one layer of a BLOCK of rows at a row `p` and an output feature `q`, in the two spellings programs use:
  the kernel's — a matrix product `[M, K]·[K, N]` into a zero accumulator, the operands narrowed to a shorter float format
  first (the identity on extended reals) and the table under an identity shape cast, plus the bias row `[1, N]` laid down the
  `M` rows (`kernel_lin_apply`, `kernel_first_apply`, `kernel_act_apply`) — and the host's — `dot_general` of the same two
  arrays plus the bias vector `[N]` laid along every row by two `broadcast_in_dim`s (`host_lin_apply`, `host_first_apply`,
  `host_act_apply`). Each reads as `lin` / `first` / `act` of row `p`, so a kernel that works on blocks of rows and a
  reference that works on the whole array meet layer by layer (`lin_congr`, `act_congr` carry an equation of rows through a
  layer). The dimension numbers are any that contract the left columns with the right rows and keep the left rows and the
  right columns in place: the six hypotheses are read off a printed record by `rfl` and two short unfoldings.
-/
import proofs.«109666_j63402307224408_1_alg».proof.Proof.LibDenseRows

noncomputable section

namespace Cert.DenseLayer

open Idealize.ShloMosaic Idealize.ShloMosaic.ValueIdx Cert.DenseRows
open scoped BigOperators

/-! ## The layers on one row -/

/-- One dense layer on a row: output feature `j` is `∑ k, h k * w k j + b j`. -/
def lin {K N : ℕ} (h : Fin K → EReal) (w : Fin K → Fin N → EReal) (b : Fin N → EReal) (j : Fin N) : EReal :=
  (∑ k : Fin K, h k * w k j) + b j

/-- The positive part of every feature against the word `z` (the programs' zero). -/
def act {N : ℕ} (z : EReal) (v : Fin N → EReal) (j : Fin N) : EReal := max (v j) z

/-- The first layer: the dense layer of the averaged neighbour row `a` (with bias) plus the bias-free product of the node's own
    row `x` with the table `wr`, grouped as `(a·wl + bl) + x·wr`. -/
def first {K N : ℕ} (a x : Fin K → EReal) (wl : Fin K → Fin N → EReal) (bl : Fin N → EReal) (wr : Fin K → Fin N → EReal)
    (j : Fin N) : EReal :=
  lin a wl bl j + ∑ k : Fin K, x k * wr k j

/-- A dense layer depends on its input row only through the row's entries. -/
theorem lin_congr {K N : ℕ} {h h' : Fin K → EReal} (w : Fin K → Fin N → EReal) (b : Fin N → EReal) (j : Fin N)
    (e : ∀ k, h k = h' k) : lin h w b j = lin h' w b j := by rw [funext e]

/-- So does the positive part. -/
theorem act_congr {N : ℕ} (z : EReal) {v v' : Fin N → EReal} (j : Fin N) (e : ∀ k, v k = v' k) :
    act z v j = act z v' j := by rw [funext e]

/-! ## One layer of a block of rows, read at a row and an output feature -/

/-- The kernel's dense layer at `(p, q)`. -/
theorem kernel_lin_apply {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (h : FVec Ideal ⟨2, ![M, K]⟩ .f32) (w : FVec Ideal ⟨2, ![K, N]⟩ .f32) (b : FVec Ideal ⟨2, ![1, N]⟩ .f32)
    (ht : FTy.bf16.bits < FTy.f32.bits)
    (hcw : (⟨2, ![K, N]⟩ : Shape).ShapeCasts ⟨2, ![K, N]⟩) (hcb : (⟨2, ![1, N]⟩ : Shape).ShapeCasts ⟨2, ![1, N]⟩)
    (hb : (⟨2, ![1, N]⟩ : Shape).Broadcasts ⟨2, ![M, N]⟩) (p : Fin M) (q : Fin N) :
    addf (matmul D none (truncf .bf16 h ht) (truncf .bf16 (shapeCast ⟨2, ![K, N]⟩ w hcw) ht)
        (constant (F := Ideal) ⟨2, ![M, N]⟩ .f32 0x00000000#32))
      (broadcastTo ⟨2, ![M, N]⟩ (shapeCast ⟨2, ![1, N]⟩ b hcb) hb) (ix2 p q)
      = lin (fun k => h (ix2 p k)) (fun k j => w (ix2 k j)) (fun j => b (ix2 (0 : Fin 1) j)) q := by
  show matmul D none (truncf .bf16 h ht) (truncf .bf16 (shapeCast ⟨2, ![K, N]⟩ w hcw) ht)
        (constant (F := Ideal) ⟨2, ![M, N]⟩ .f32 0x00000000#32) (ix2 p q)
      + broadcastTo ⟨2, ![M, N]⟩ (shapeCast ⟨2, ![1, N]⟩ b hcb) hb (ix2 p q) = _
  rw [matmul_zero_plain_apply D hl hr hrank hsize hl0 hr1, broadcastTo_1b_ab_apply, shapeCast_self, shapeCast_self]
  rfl

/-- The host's dense layer at `(p, q)`. -/
theorem host_lin_apply {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (h : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    addf (Host.dotGeneral (F := Ideal) D none h w)
      (broadcastInDim ⟨2, ![M, N]⟩ ![0, 1] h2 (broadcastInDim ⟨2, ![1, N]⟩ ![1] h1 b)) (ix2 p q)
      = lin (fun k => h (ix2 p k)) (fun k j => w (ix2 k j)) (fun j => b (ix1 j)) q := by
  show Host.dotGeneral (F := Ideal) D none h w (ix2 p q)
      + broadcastInDim ⟨2, ![M, N]⟩ ![0, 1] h2 (broadcastInDim ⟨2, ![1, N]⟩ ![1] h1 b) (ix2 p q) = _
  rw [dotGeneral_plain_apply D hl hr hrank hsize hl0 hr1, rowBias_inDim_apply]
  rfl

/-- The kernel's first layer at `(p, q)`: the dense layer of the block `a` plus the bias-free product of the block `x` with a
    second table, grouped `(a·wl + bl) + x·wr`. -/
theorem kernel_first_apply {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (a x : FVec Ideal ⟨2, ![M, K]⟩ .f32) (wl wr : FVec Ideal ⟨2, ![K, N]⟩ .f32) (bl : FVec Ideal ⟨2, ![1, N]⟩ .f32)
    (ht : FTy.bf16.bits < FTy.f32.bits) (hca : (⟨2, ![M, K]⟩ : Shape).ShapeCasts ⟨2, ![M, K]⟩)
    (hcw : (⟨2, ![K, N]⟩ : Shape).ShapeCasts ⟨2, ![K, N]⟩) (hcb : (⟨2, ![1, N]⟩ : Shape).ShapeCasts ⟨2, ![1, N]⟩)
    (hb : (⟨2, ![1, N]⟩ : Shape).Broadcasts ⟨2, ![M, N]⟩) (p : Fin M) (q : Fin N) :
    addf (addf (matmul D none (truncf .bf16 (shapeCast ⟨2, ![M, K]⟩ a hca) ht) (truncf .bf16 (shapeCast ⟨2, ![K, N]⟩ wl hcw) ht)
          (constant (F := Ideal) ⟨2, ![M, N]⟩ .f32 0x00000000#32))
        (broadcastTo ⟨2, ![M, N]⟩ (shapeCast ⟨2, ![1, N]⟩ bl hcb) hb))
      (matmul D none (truncf .bf16 x ht) (truncf .bf16 (shapeCast ⟨2, ![K, N]⟩ wr hcw) ht)
        (constant (F := Ideal) ⟨2, ![M, N]⟩ .f32 0x00000000#32)) (ix2 p q)
      = first (fun k => a (ix2 p k)) (fun k => x (ix2 p k)) (fun k j => wl (ix2 k j)) (fun j => bl (ix2 (0 : Fin 1) j))
          (fun k j => wr (ix2 k j)) q := by
  show addf (matmul D none (truncf .bf16 (shapeCast ⟨2, ![M, K]⟩ a hca) ht) (truncf .bf16 (shapeCast ⟨2, ![K, N]⟩ wl hcw) ht)
          (constant (F := Ideal) ⟨2, ![M, N]⟩ .f32 0x00000000#32))
        (broadcastTo ⟨2, ![M, N]⟩ (shapeCast ⟨2, ![1, N]⟩ bl hcb) hb) (ix2 p q)
      + matmul D none (truncf .bf16 x ht) (truncf .bf16 (shapeCast ⟨2, ![K, N]⟩ wr hcw) ht)
        (constant (F := Ideal) ⟨2, ![M, N]⟩ .f32 0x00000000#32) (ix2 p q) = _
  rw [kernel_lin_apply D hl hr hrank hsize hl0 hr1 (shapeCast ⟨2, ![M, K]⟩ a hca) wl bl ht hcw hcb hb p q,
    matmul_zero_plain_apply D hl hr hrank hsize hl0 hr1, shapeCast_self, shapeCast_self]
  rfl

/-- The host's first layer at `(p, q)`, in the same grouping. -/
theorem host_first_apply {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (a x : FVec Ideal ⟨2, ![M, K]⟩ .f32) (wl wr : FVec Ideal ⟨2, ![K, N]⟩ .f32) (bl : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    addf (addf (Host.dotGeneral (F := Ideal) D none a wl)
        (broadcastInDim ⟨2, ![M, N]⟩ ![0, 1] h2 (broadcastInDim ⟨2, ![1, N]⟩ ![1] h1 bl)))
      (Host.dotGeneral (F := Ideal) D none x wr) (ix2 p q)
      = first (fun k => a (ix2 p k)) (fun k => x (ix2 p k)) (fun k j => wl (ix2 k j)) (fun j => bl (ix1 j))
          (fun k j => wr (ix2 k j)) q := by
  show addf (Host.dotGeneral (F := Ideal) D none a wl)
        (broadcastInDim ⟨2, ![M, N]⟩ ![0, 1] h2 (broadcastInDim ⟨2, ![1, N]⟩ ![1] h1 bl)) (ix2 p q)
      + Host.dotGeneral (F := Ideal) D none x wr (ix2 p q) = _
  rw [host_lin_apply D hl hr hrank hsize hl0 hr1 a wl bl h1 h2 p q, dotGeneral_plain_apply D hl hr hrank hsize hl0 hr1]
  rfl

/-- The kernel's positive part: the maximum with the zero word splat over the block. -/
theorem kernel_act_apply {M N : ℕ} (v : FVec Ideal ⟨2, ![M, N]⟩ .f32) (p : Fin M) (q : Fin N) :
    maximumf v (broadcast ⟨2, ![M, N]⟩ (Scalar.ofBits (F := Ideal) .f32 0x00000000#32)) (ix2 p q)
      = act (Ideal.ofBits .f32 0x00000000#32) (fun j => v (ix2 p j)) q := rfl

/-- The host's positive part: the maximum with the zero scalar laid over the array. -/
theorem host_act_apply {M N : ℕ} (v : FVec Ideal ⟨2, ![M, N]⟩ .f32)
    (h : (⟨0, ![]⟩ : Shape).BroadcastsInDim ⟨2, ![M, N]⟩ ![]) (p : Fin M) (q : Fin N) :
    maximumf v (broadcastInDim ⟨2, ![M, N]⟩ ![] h (constant (F := Ideal) ⟨0, ![]⟩ .f32 0x00000000#32)) (ix2 p q)
      = act (Ideal.ofBits .f32 0x00000000#32) (fun j => v (ix2 p j)) q := by
  show max (v (ix2 p q)) (broadcastInDim ⟨2, ![M, N]⟩ ![] h (constant (F := Ideal) ⟨0, ![]⟩ .f32 0x00000000#32) (ix2 p q)) = _
  rw [broadcastInDim_apply ![] h _ (ix2 p q) ix0 (fun a => a.elim0)]
  rfl

end Cert.DenseLayer

end
-- ==== Proof.RowMlp.lean ====
/-
  The network of this certificate on ONE row of features, free of any array shape, and the result array it gives.

  A neighbourhood layer — the dense layer of the node's averaged neighbour row plus the bias-free product of the node's own
  row with a second table — followed by three dense layers, each under the positive part `max · z`, and a last dense layer
  to three outputs: `256 → 256 → 128 → 64 → 32 → 3`. Both programs compute exactly this, row by row; nothing here needs an
  entry to be finite: the two sides are the SAME sums in the same grouping.
-/
import proofs.«109666_j63402307224408_1_alg».proof.Proof.LibDenseLayer

noncomputable section

namespace Cert.RowMlp

open Cert.DenseLayer
open scoped BigOperators

/-- The whole network on one row: `256 → 256 → 128 → 64 → 32 → 3`. -/
def rowOut (z : EReal) (a x : Fin 256 → EReal) (wl : Fin 256 → Fin 256 → EReal) (bl : Fin 256 → EReal)
    (wr : Fin 256 → Fin 256 → EReal) (wa : Fin 256 → Fin 128 → EReal) (ba : Fin 128 → EReal)
    (w1 : Fin 128 → Fin 64 → EReal) (b1 : Fin 64 → EReal) (w2 : Fin 64 → Fin 32 → EReal) (b2 : Fin 32 → EReal)
    (w3 : Fin 32 → Fin 3 → EReal) (b3 : Fin 3 → EReal) : Fin 3 → EReal :=
  lin (act z (lin (act z (lin (act z (lin (act z (first a x wl bl wr)) wa ba)) w1 b1)) w2 b2)) w3 b3

/-- The network's output depends on its row inputs, tables and biases only through their entries. -/
theorem rowOut_congr (z : EReal) {a a' x x' : Fin 256 → EReal} {wl wl' wr wr' : Fin 256 → Fin 256 → EReal} {bl bl' : Fin 256 → EReal}
    {wa wa' : Fin 256 → Fin 128 → EReal} {ba ba' : Fin 128 → EReal} {w1 w1' : Fin 128 → Fin 64 → EReal} {b1 b1' : Fin 64 → EReal}
    {w2 w2' : Fin 64 → Fin 32 → EReal} {b2 b2' : Fin 32 → EReal} {w3 w3' : Fin 32 → Fin 3 → EReal} {b3 b3' : Fin 3 → EReal}
    {q q' : Fin 3}
    (ha : ∀ k, a k = a' k) (hx : ∀ k, x k = x' k) (hwl : ∀ k j, wl k j = wl' k j) (hbl : ∀ j, bl j = bl' j)
    (hwr : ∀ k j, wr k j = wr' k j) (hwa : ∀ k j, wa k j = wa' k j) (hba : ∀ j, ba j = ba' j)
    (hw1 : ∀ k j, w1 k j = w1' k j) (hb1 : ∀ j, b1 j = b1' j) (hw2 : ∀ k j, w2 k j = w2' k j) (hb2 : ∀ j, b2 j = b2' j)
    (hw3 : ∀ k j, w3 k j = w3' k j) (hb3 : ∀ j, b3 j = b3' j) (hq : q = q') :
    rowOut z a x wl bl wr wa ba w1 b1 w2 b2 w3 b3 q = rowOut z a' x' wl' bl' wr' wa' ba' w1' b1' w2' b2' w3' b3' q' := by
  rw [funext ha, funext hx, funext fun k => funext (hwl k), funext hbl, funext fun k => funext (hwr k),
    funext fun k => funext (hwa k), funext hba, funext fun k => funext (hw1 k), funext hb1,
    funext fun k => funext (hw2 k), funext hb2, funext fun k => funext (hw3 k), funext hb3, hq]

open Idealize.ShloMosaic Idealize.ShloMosaic.ValueIdx in
/-- THE RESULT ARRAY: entry `(r, q)` is the network's output `q` on node `r`'s averaged neighbour row `A (r, ·)` and own row
    `X (r, ·)`, the tables given as `[inputs, outputs]` arrays and the biases as rows. -/
def whole (z : EReal) (A X : (⟨2, ![10000, 256]⟩ : Shape).Idx → EReal) (wl wr : (⟨2, ![256, 256]⟩ : Shape).Idx → EReal)
    (bl : Fin 256 → EReal) (wa : (⟨2, ![256, 128]⟩ : Shape).Idx → EReal) (ba : Fin 128 → EReal)
    (w1 : (⟨2, ![128, 64]⟩ : Shape).Idx → EReal) (b1 : Fin 64 → EReal) (w2 : (⟨2, ![64, 32]⟩ : Shape).Idx → EReal)
    (b2 : Fin 32 → EReal) (w3 : (⟨2, ![32, 3]⟩ : Shape).Idx → EReal) (b3 : Fin 3 → EReal) :
    (⟨2, ![10000, 3]⟩ : Shape).Idx → EReal := fun i =>
  rowOut z (fun k => A (ix2 (i 0) k)) (fun k => X (ix2 (i 0) k)) (fun k j => wl (ix2 k j)) bl (fun k j => wr (ix2 k j))
    (fun k j => wa (ix2 k j)) ba (fun k j => w1 (ix2 k j)) b1 (fun k j => w2 (ix2 k j)) b2 (fun k j => w3 (ix2 k j)) b3 (i 1)

end Cert.RowMlp

end
-- ==== Proof.KernelRow.lean ====
/-
  What the kernel's body computes for one block of 2000 rows, read at a row `p` of the block and an output feature `q`:
  the network of `RowMlp.rowOut` applied to row `p` of the block of averaged neighbour rows and row `p` of the block of
  the nodes' own rows, with the weight tables as loaded (already transposed to `[inputs, outputs]`) and each bias as its
  single row `[1, outputs]`. The body narrows every matrix operand to a shorter float format before each product; on
  extended reals that is the identity, so each product into the zero accumulator is the plain sum over the contracted
  feature.
-/
import proofs.«109666_j63402307224408_1_alg».proof.Proof.Gen.KernelIdeal.Skeleton
import proofs.«109666_j63402307224408_1_alg».proof.Proof.RowMlp

noncomputable section

namespace Cert.KernelRow

open Idealize.ShloMosaic Idealize.ShloMosaic.ValueIdx Cert.RowMlp Cert.DenseLayer
open Cert.KernelIdeal Cert.KernelIdeal.Gen Cert.KernelIdeal.Facts₀ Cert.KernelIdeal.Facts
open scoped BigOperators

/-! ## The five products' operand coordinates -/

/-- The first product keeps the block's row: the left operand is read on the result's row. -/
theorem first_left_row (j : S2000x256.Idx) (k : dot_S2000x256_S256x256_S2000x256_1_0_0_1_n_n.contr.Idx) :
    (dot_S2000x256_S256x256_S2000x256_1_0_0_1_n_n.lhsIdx j k 0).val = (j 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- … and the table's column: the right operand is read on the result's column. -/
theorem first_right_col (j : S2000x256.Idx) (k : dot_S2000x256_S256x256_S2000x256_1_0_0_1_n_n.contr.Idx) :
    (dot_S2000x256_S256x256_S2000x256_1_0_0_1_n_n.rhsIdx j k 1).val = (j 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The second product keeps the block's row: the left operand is read on the result's row. -/
theorem second_left_row (j : S2000x128.Idx) (k : dot_S2000x256_S256x128_S2000x128_1_0_0_1_n_n.contr.Idx) :
    (dot_S2000x256_S256x128_S2000x128_1_0_0_1_n_n.lhsIdx j k 0).val = (j 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
/-- … and the table's column: the right operand is read on the result's column. -/
theorem second_right_col (j : S2000x128.Idx) (k : dot_S2000x256_S256x128_S2000x128_1_0_0_1_n_n.contr.Idx) :
    (dot_S2000x256_S256x128_S2000x128_1_0_0_1_n_n.rhsIdx j k 1).val = (j 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The third product keeps the block's row: the left operand is read on the result's row. -/
theorem third_left_row (j : S2000x64.Idx) (k : dot_S2000x128_S128x64_S2000x64_1_0_0_1_n_n.contr.Idx) :
    (dot_S2000x128_S128x64_S2000x64_1_0_0_1_n_n.lhsIdx j k 0).val = (j 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
/-- … and the table's column: the right operand is read on the result's column. -/
theorem third_right_col (j : S2000x64.Idx) (k : dot_S2000x128_S128x64_S2000x64_1_0_0_1_n_n.contr.Idx) :
    (dot_S2000x128_S128x64_S2000x64_1_0_0_1_n_n.rhsIdx j k 1).val = (j 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The fourth product keeps the block's row: the left operand is read on the result's row. -/
theorem fourth_left_row (j : S2000x32.Idx) (k : dot_S2000x64_S64x32_S2000x32_1_0_0_1_n_n.contr.Idx) :
    (dot_S2000x64_S64x32_S2000x32_1_0_0_1_n_n.lhsIdx j k 0).val = (j 0).val := by
  unfold DotDims.lhsIdx
  rw [dif_neg (show ¬(0 : Fin S2000x64.rank) ∈ dot_S2000x64_S64x32_S2000x32_1_0_0_1_n_n.lhsBatch by decide), dif_pos (show (0 : Fin S2000x64.rank) ∈ dot_S2000x64_S64x32_S2000x32_1_0_0_1_n_n.lhsNonContracting by decide)]
  rfl
/-- … and the table's column: the right operand is read on the result's column. -/
theorem fourth_right_col (j : S2000x32.Idx) (k : dot_S2000x64_S64x32_S2000x32_1_0_0_1_n_n.contr.Idx) :
    (dot_S2000x64_S64x32_S2000x32_1_0_0_1_n_n.rhsIdx j k 1).val = (j 1).val := by
  unfold DotDims.rhsIdx
  rw [dif_neg (show ¬(1 : Fin S64x32.rank) ∈ dot_S2000x64_S64x32_S2000x32_1_0_0_1_n_n.rhsBatch by decide), dif_pos (show (1 : Fin S64x32.rank) ∈ dot_S2000x64_S64x32_S2000x32_1_0_0_1_n_n.rhsNonContracting by decide)]
  rfl

/-- The last product keeps the block's row: the left operand is read on the result's row. -/
theorem last_left_row (j : S2000x3.Idx) (k : dot_S2000x32_S32x3_S2000x3_1_0_0_1_n_n.contr.Idx) :
    (dot_S2000x32_S32x3_S2000x3_1_0_0_1_n_n.lhsIdx j k 0).val = (j 0).val := by
  unfold DotDims.lhsIdx
  rw [dif_neg (show ¬(0 : Fin S2000x32.rank) ∈ dot_S2000x32_S32x3_S2000x3_1_0_0_1_n_n.lhsBatch by decide), dif_pos (show (0 : Fin S2000x32.rank) ∈ dot_S2000x32_S32x3_S2000x3_1_0_0_1_n_n.lhsNonContracting by decide)]
  rfl
/-- … and the table's column: the right operand is read on the result's column. -/
theorem last_right_col (j : S2000x3.Idx) (k : dot_S2000x32_S32x3_S2000x3_1_0_0_1_n_n.contr.Idx) :
    (dot_S2000x32_S32x3_S2000x3_1_0_0_1_n_n.rhsIdx j k 1).val = (j 1).val := by
  unfold DotDims.rhsIdx
  rw [dif_neg (show ¬(1 : Fin S32x3.rank) ∈ dot_S2000x32_S32x3_S2000x3_1_0_0_1_n_n.rhsBatch by decide), dif_pos (show (1 : Fin S32x3.rank) ∈ dot_S2000x32_S32x3_S2000x3_1_0_0_1_n_n.rhsNonContracting by decide)]
  rfl

/-! ## The body's result at `(p, q)` -/

/-- The programs' zero word as an extended real. -/
abbrev z : EReal := Ideal.ofBits .f32 0x00000000#32

/-- The stored block at `(p, q)` is the network on row `p` of the two loaded row blocks. -/
theorem pay_apply (x0 x1 : Vec Ideal S2000x256 .f32) (x2 x4 : Vec Ideal S256x256 .f32) (x3 : Vec Ideal S1x256 .f32)
    (x5 : Vec Ideal S256x128 .f32) (x6 : Vec Ideal S1x128 .f32) (x7 : Vec Ideal S128x64 .f32) (x8 : Vec Ideal S1x64 .f32)
    (x9 : Vec Ideal S64x32 .f32) (x10 : Vec Ideal S1x32 .f32) (x11 : Vec Ideal S32x3 .f32) (x12 : Vec Ideal S1x3 .f32)
    (p : Fin 2000) (q : Fin 3) :
    k0_pay1 (F := Ideal) (k0_pay2 (F := Ideal) x0 x1 x2 x4 x3 x5 x6 x7) x8 x9 x10 x11 x12 (ix2 p q)
      = rowOut z (fun k => x0 (ix2 p k)) (fun k => x1 (ix2 p k)) (fun k j => x2 (ix2 k j)) (fun j => x3 (ix2 (0 : Fin 1) j))
          (fun k j => x4 (ix2 k j)) (fun k j => x5 (ix2 k j)) (fun j => x6 (ix2 (0 : Fin 1) j))
          (fun k j => x7 (ix2 k j)) (fun j => x8 (ix2 (0 : Fin 1) j)) (fun k j => x9 (ix2 k j)) (fun j => x10 (ix2 (0 : Fin 1) j))
          (fun k j => x11 (ix2 k j)) (fun j => x12 (ix2 (0 : Fin 1) j)) q := by
  unfold k0_pay1 k0_pay2 rowOut
  dsimp only
  refine (kernel_lin_apply dot_S2000x32_S32x3_S2000x3_1_0_0_1_n_n rfl rfl rfl rfl last_left_row last_right_col _ x11 x12 _ _ _ _ p q).trans
    (lin_congr _ _ _ fun k4 => ?_)
  refine (kernel_act_apply _ p k4).trans (act_congr _ _ fun j4 => ?_)
  refine (kernel_lin_apply dot_S2000x64_S64x32_S2000x32_1_0_0_1_n_n rfl rfl rfl rfl fourth_left_row fourth_right_col _ x9 x10 _ _ _ _ p j4).trans
    (lin_congr _ _ _ fun k3 => ?_)
  refine (kernel_act_apply _ p k3).trans (act_congr _ _ fun j3 => ?_)
  refine (kernel_lin_apply dot_S2000x128_S128x64_S2000x64_1_0_0_1_n_n rfl rfl rfl rfl third_left_row third_right_col _ x7 x8 _ _ _ _ p j3).trans
    (lin_congr _ _ _ fun k2 => ?_)
  refine (kernel_act_apply _ p k2).trans (act_congr _ _ fun j2 => ?_)
  refine (kernel_lin_apply dot_S2000x256_S256x128_S2000x128_1_0_0_1_n_n rfl rfl rfl rfl second_left_row second_right_col _ x5 x6 _ _ _ _ p j2).trans
    (lin_congr _ _ _ fun k1 => ?_)
  refine (kernel_act_apply _ p k1).trans (act_congr _ _ fun j1 => ?_)
  exact kernel_first_apply dot_S2000x256_S256x256_S2000x256_1_0_0_1_n_n rfl rfl rfl rfl first_left_row first_right_col x0 x1 x2 x4 x3 _ _ _ _ _ p j1

end Cert.KernelRow

end
-- ==== Proof.EntryArrays.lean ====
/-
  The arrays the kernel's launch finds, after the host lines in front of it.

  The averaged neighbour features are written by the same host operations, in the same order and with the same constants,
  as the reference's own averaging stage — gather the source rows, sum them into the destination rows, count the edges
  into each destination, divide by the count raised to at least one — so that array IS the reference's stage of the two
  arguments it reads; it is never opened. Each weight table is the argument transposed to `[inputs, outputs]`, again the
  reference's own stage. Each bias is the argument vector recast as one row, read at `(0, j)` as the vector at `j`.
-/
import proofs.«109666_j63402307224408_1_alg».proof.Proof.Gen.KernelIdeal.Frame
import proofs.«109666_j63402307224408_1_alg».proof.Proof.Gen.ReferenceIdeal.Read
import Idealize.ShloMosaic.Lib.StableHlo.Run
import Idealize.ShloMosaic.Lib.ValueLayout

set_option maxRecDepth 16384

noncomputable section

namespace Cert.EntryArrays

open Idealize.ShloMosaic Idealize.ShloMosaic.TcCoe Idealize.SL.Sem Idealize.ShloMosaic.StableHlo Idealize.ShloMosaic.ValueIdx
open Cert.KernelIdeal Cert.KernelIdeal.Gen Cert.KernelIdeal.Facts₀ Cert.KernelIdeal.Facts

variable (m : (ℓ : Loc nD τ sig) → Buf (Elt Ideal) ℓ) (c : Dev nD)

set_option maxHeartbeats 16000000 in
/-- The averaged neighbour features at the launch are the reference's averaging stage of the node features and the edge list. -/
theorem agg_eq : (V (F := Ideal) m c main_v22 : S10000x256.Idx → EReal)
    = Cert.ReferenceIdeal.Read.val_main_v22 (F := Ideal) (m ((c : Thread nD τ).loc main_arg0)) (m ((c : Thread nD τ).loc main_arg1)) := by
  dsimp only [V, hostOps0]; after_results; rfl

/-- The node features at the launch are the argument. -/
theorem x_eq : (V (F := Ideal) m c main_arg0 : S10000x256.Idx → EReal) = (m ((c : Thread nD τ).loc main_arg0)) := V_main_arg0 m c

/-- Table `wl` at the launch is the argument transposed: the reference's own transposed table. -/
theorem wl_eq : (V (F := Ideal) m c main_v23 : S256x256.Idx → EReal)
    = Cert.ReferenceIdeal.Read.val_main_v23 (F := Ideal) (m ((c : Thread nD τ).loc main_arg2)) := by
  dsimp only [V, hostOps0]; after_results; rfl

/-- Table `wr` at the launch is the argument transposed: the reference's own transposed table. -/
theorem wr_eq : (V (F := Ideal) m c main_v24 : S256x256.Idx → EReal)
    = Cert.ReferenceIdeal.Read.val_main_v28 (F := Ideal) (m ((c : Thread nD τ).loc main_arg4)) := by
  dsimp only [V, hostOps0]; after_results; rfl

/-- Table `wa` at the launch is the argument transposed: the reference's own transposed table. -/
theorem wa_eq : (V (F := Ideal) m c main_v25 : S256x128.Idx → EReal)
    = Cert.ReferenceIdeal.Read.val_main_v32 (F := Ideal) (m ((c : Thread nD τ).loc main_arg5)) := by
  dsimp only [V, hostOps0]; after_results; rfl

/-- Table `w1` at the launch is the argument transposed: the reference's own transposed table. -/
theorem w1_eq : (V (F := Ideal) m c main_v26 : S128x64.Idx → EReal)
    = Cert.ReferenceIdeal.Read.val_main_v38 (F := Ideal) (m ((c : Thread nD τ).loc main_arg7)) := by
  dsimp only [V, hostOps0]; after_results; rfl

/-- Table `w2` at the launch is the argument transposed: the reference's own transposed table. -/
theorem w2_eq : (V (F := Ideal) m c main_v27 : S64x32.Idx → EReal)
    = Cert.ReferenceIdeal.Read.val_main_v44 (F := Ideal) (m ((c : Thread nD τ).loc main_arg9)) := by
  dsimp only [V, hostOps0]; after_results; rfl

/-- Table `w3` at the launch is the argument transposed: the reference's own transposed table. -/
theorem w3_eq : (V (F := Ideal) m c main_v28 : S32x3.Idx → EReal)
    = Cert.ReferenceIdeal.Read.val_main_v50 (F := Ideal) (m ((c : Thread nD τ).loc main_arg11)) := by
  dsimp only [V, hostOps0]; after_results; rfl

/-- Bias `bl` at the launch is the argument vector as one row. -/
theorem bl_apply (j : Fin 256) : (V (F := Ideal) m c main_v29 : S1x256.Idx → EReal) (ix2 (0 : Fin 1) j) = (m ((c : Thread nD τ).loc main_arg3)) (ix1 j) := by
  have e : (V (F := Ideal) m c main_v29 : S1x256.Idx → EReal) = shapeCast S1x256 (m ((c : Thread nD τ).loc main_arg3)) Facts₀.shapeCasts_S256_S1x256 := by
    dsimp only [V, hostOps0]; after_results; rfl
  rw [e]
  exact shapeCast_a_1a_apply _ _ 0 j

/-- Bias `ba` at the launch is the argument vector as one row. -/
theorem ba_apply (j : Fin 128) : (V (F := Ideal) m c main_v30 : S1x128.Idx → EReal) (ix2 (0 : Fin 1) j) = (m ((c : Thread nD τ).loc main_arg6)) (ix1 j) := by
  have e : (V (F := Ideal) m c main_v30 : S1x128.Idx → EReal) = shapeCast S1x128 (m ((c : Thread nD τ).loc main_arg6)) Facts₀.shapeCasts_S128_S1x128 := by
    dsimp only [V, hostOps0]; after_results; rfl
  rw [e]
  exact shapeCast_a_1a_apply _ _ 0 j

/-- Bias `b1` at the launch is the argument vector as one row. -/
theorem b1_apply (j : Fin 64) : (V (F := Ideal) m c main_v31 : S1x64.Idx → EReal) (ix2 (0 : Fin 1) j) = (m ((c : Thread nD τ).loc main_arg8)) (ix1 j) := by
  have e : (V (F := Ideal) m c main_v31 : S1x64.Idx → EReal) = shapeCast S1x64 (m ((c : Thread nD τ).loc main_arg8)) Facts₀.shapeCasts_S64_S1x64 := by
    dsimp only [V, hostOps0]; after_results; rfl
  rw [e]
  exact shapeCast_a_1a_apply _ _ 0 j

/-- Bias `b2` at the launch is the argument vector as one row. -/
theorem b2_apply (j : Fin 32) : (V (F := Ideal) m c main_v32 : S1x32.Idx → EReal) (ix2 (0 : Fin 1) j) = (m ((c : Thread nD τ).loc main_arg10)) (ix1 j) := by
  have e : (V (F := Ideal) m c main_v32 : S1x32.Idx → EReal) = shapeCast S1x32 (m ((c : Thread nD τ).loc main_arg10)) Facts₀.shapeCasts_S32_S1x32 := by
    dsimp only [V, hostOps0]; after_results; rfl
  rw [e]
  exact shapeCast_a_1a_apply _ _ 0 j

/-- Bias `b3` at the launch is the argument vector as one row. -/
theorem b3_apply (j : Fin 3) : (V (F := Ideal) m c main_v33 : S1x3.Idx → EReal) (ix2 (0 : Fin 1) j) = (m ((c : Thread nD τ).loc main_arg12)) (ix1 j) := by
  have e : (V (F := Ideal) m c main_v33 : S1x3.Idx → EReal) = shapeCast S1x3 (m ((c : Thread nD τ).loc main_arg12)) Facts₀.shapeCasts_S3_S1x3 := by
    dsimp only [V, hostOps0]; after_results; rfl
  rw [e]
  exact shapeCast_a_1a_apply _ _ 0 j

end Cert.EntryArrays

end
-- ==== Proof.KernelArray.lean ====
/-
  From blocks to the array: what the kernel's result array holds after the run.

  The grid has five points; point `t` works on rows `2000·t … 2000·t + 1999`: it is handed those rows of the averaged
  neighbour features and of the node features, the six weight tables and five bias rows whole, and writes back rows
  `2000·t … 2000·t + 1999` of the result, all three columns. The network acts row by row, so what point `t` writes back is
  block `t` of ONE whole-array function, `RowMlp.whole`; the five blocks tile the array, so the array ends holding that
  function — stated here of the launch contents read through `EntryArrays`, that is of the reference's own averaging stage
  and transposed tables.
-/
import proofs.«109666_j63402307224408_1_alg».proof.Proof.Gen.KernelIdeal.Value
import proofs.«109666_j63402307224408_1_alg».proof.Proof.KernelRow
import proofs.«109666_j63402307224408_1_alg».proof.Proof.EntryArrays

set_option maxRecDepth 16384

noncomputable section

namespace Cert.KernelArray

open Idealize.ShloMosaic Idealize.ShloMosaic.TcCoe Idealize.SL.Sem Idealize.ShloMosaic.ValueIdx
open Idealize.ShloMosaic.Pipeline (Dat)
open Cert.KernelIdeal Cert.KernelIdeal.Gen Cert.RowMlp Cert.KernelRow Cert.EntryArrays

variable (m : (ℓ : Loc nD τ sig) → Buf (Elt Ideal) ℓ) (ρ : Dev nD → PrngReg)

theorem origin : (![0, 0] : Fin 2 → Nat) = fun _ => 0 := funext fun a => by fin_cases a <;> rfl

/-- The result array as one function of the launch contents of the arguments. -/
def result (c : Dev nD) : S10000x3.Idx → EReal :=
  whole z (Cert.ReferenceIdeal.Read.val_main_v22 (F := Ideal) (m ((c : Thread nD τ).loc main_arg0)) (m ((c : Thread nD τ).loc main_arg1))) (m ((c : Thread nD τ).loc main_arg0))
    (Cert.ReferenceIdeal.Read.val_main_v23 (F := Ideal) (m ((c : Thread nD τ).loc main_arg2))) (Cert.ReferenceIdeal.Read.val_main_v28 (F := Ideal) (m ((c : Thread nD τ).loc main_arg4)))
    (fun j => (m ((c : Thread nD τ).loc main_arg3)) (ix1 j)) (Cert.ReferenceIdeal.Read.val_main_v32 (F := Ideal) (m ((c : Thread nD τ).loc main_arg5))) (fun j => (m ((c : Thread nD τ).loc main_arg6)) (ix1 j))
    (Cert.ReferenceIdeal.Read.val_main_v38 (F := Ideal) (m ((c : Thread nD τ).loc main_arg7))) (fun j => (m ((c : Thread nD τ).loc main_arg8)) (ix1 j))
    (Cert.ReferenceIdeal.Read.val_main_v44 (F := Ideal) (m ((c : Thread nD τ).loc main_arg9))) (fun j => (m ((c : Thread nD τ).loc main_arg10)) (ix1 j))
    (Cert.ReferenceIdeal.Read.val_main_v50 (F := Ideal) (m ((c : Thread nD τ).loc main_arg11))) (fun j => (m ((c : Thread nD τ).loc main_arg12)) (ix1 j))

/-- The printed block index maps, decided over the five points: the two row windows move with the output's block row and
    stay in column block 0; every table and bias window stays at block (0, 0); the output stays in column block 0 and its
    block row is at most 4. -/
theorem idx_facts : ∀ t : Fin cfg0.N, win0_0.index t (0 : Fin 2) = win0_13.index t (0 : Fin 2)
    ∧ win0_0.index t (1 : Fin 2) = 0
    ∧ win0_1.index t (0 : Fin 2) = win0_13.index t (0 : Fin 2)
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0
    ∧ win0_13.index t (1 : Fin 2) = 0
    ∧ win0_13.index t (0 : Fin 2) ≤ 4 :=
  (by decide +kernel : ∀ t : Fin grid0.N, _)

/-- Every block row `0 … 4` of the result is some point's. -/
theorem idx_onto : ∀ b : Fin 5, ∃ t : Fin cfg0.N, win0_13.index t = ![b.val, 0] :=
  (by decide +kernel : ∀ b : Fin 5, ∃ t : Fin grid0.N, win0_13.index t = ![b.val, 0])

set_option maxHeartbeats 4000000 in
/-- WHAT POINT `t` WRITES BACK is block `t` of `result`. -/
theorem flushed_eq (c : Dev nD) (t : Fin cfg0.N) :
    (dats m 0 c).flushed 13 t = ((cfg0.win 13).blk t).view.read (Elt Ideal) (result m c) := by
  rw [Cert.KernelIdeal.Value.flushed13]
  unfold out0_13
  rw [View.canon_unit_zero origin]
  simp only [View.ld_unit_zero (S := S2000x256) origin, View.ld_unit_zero (S := S256x256) origin, View.ld_unit_zero (S := S1x256) origin, View.ld_unit_zero (S := S256x128) origin, View.ld_unit_zero (S := S1x128) origin, View.ld_unit_zero (S := S128x64) origin, View.ld_unit_zero (S := S1x64) origin, View.ld_unit_zero (S := S64x32) origin, View.ld_unit_zero (S := S1x32) origin, View.ld_unit_zero (S := S32x3) origin, View.ld_unit_zero (S := S1x3) origin]
  obtain ⟨fa0, fa1, fx0, fx1, f2_0, f2_1, f3_0, f3_1, f4_0, f4_1, f5_0, f5_1, f6_0, f6_1, f7_0, f7_1, f8_0, f8_1, f9_0, f9_1, f10_0, f10_1, f11_0, f11_1, f12_0, f12_1, fo1, fo0⟩ := idx_facts t
  funext y
  obtain ⟨p, q, rfl⟩ : ∃ (p : Fin 2000) (q : Fin 3), y = ix2 p q := ⟨y 0, y 1, eq_ix2 y⟩
  show k0_pay1 (F := Ideal) (k0_pay2 (F := Ideal) (iblk m c 0 t) (iblk m c 1 t) (iblk m c 2 t) (iblk m c 4 t) (iblk m c 3 t) (iblk m c 5 t) (iblk m c 6 t) (iblk m c 7 t))
      (iblk m c 8 t) (iblk m c 9 t) (iblk m c 10 t) (iblk m c 11 t) (iblk m c 12 t) (ix2 p q)
    = result m c (((cfg0.win 13).blk t).view.emb (ix2 p q))
  refine (pay_apply (iblk m c 0 t) (iblk m c 1 t) (iblk m c 2 t) (iblk m c 4 t) (iblk m c 3 t) (iblk m c 5 t) (iblk m c 6 t) (iblk m c 7 t)
    (iblk m c 8 t) (iblk m c 9 t) (iblk m c 10 t) (iblk m c 11 t) (iblk m c 12 t) p q).trans ?_
  unfold result whole
  refine rowOut_congr z (fun k => ?_) (fun k => ?_) (fun k j => ?_) (fun j => ?_) (fun k j => ?_) (fun k j => ?_) (fun j => ?_)
    (fun k j => ?_) (fun j => ?_) (fun k j => ?_) (fun j => ?_) (fun k j => ?_) (fun j => ?_) ?_
  · -- window 0: the block of averaged neighbour rows is rows `2000·b … 2000·b + 1999` of the array, `b` the output's block row
    show V (F := Ideal) m c main_v22 (((cfg0.win 0).blk t).view.emb (ix2 p k)) = _
    rw [agg_eq m c]
    refine congrArg _ (funext fun a => Fin.ext ?_)
    match a with
    | ⟨0, _⟩ => show win0_0.index t (0 : Fin 2) * 2000 + 1 * p.val = win0_13.index t (0 : Fin 2) * 2000 + 1 * p.val; omega
    | ⟨1, _⟩ => show win0_0.index t (1 : Fin 2) * 256 + 1 * k.val = k.val; omega
  · -- window 1: the same rows of the node features
    show V (F := Ideal) m c main_arg0 (((cfg0.win 1).blk t).view.emb (ix2 p k)) = _
    rw [x_eq m c]
    refine congrArg _ (funext fun a => Fin.ext ?_)
    match a with
    | ⟨0, _⟩ => show win0_1.index t (0 : Fin 2) * 2000 + 1 * p.val = win0_13.index t (0 : Fin 2) * 2000 + 1 * p.val; omega
    | ⟨1, _⟩ => show win0_1.index t (1 : Fin 2) * 256 + 1 * k.val = k.val; omega
  · -- table window 2: one block, the whole table
    show V (F := Ideal) m c main_v23 (((cfg0.win 2).blk t).view.emb (ix2 k j)) = _
    rw [wl_eq m c]
    refine congrArg _ (funext fun a => Fin.ext ?_)
    match a with
    | ⟨0, _⟩ => show win0_2.index t (0 : Fin 2) * 256 + 1 * k.val = k.val; omega
    | ⟨1, _⟩ => show win0_2.index t (1 : Fin 2) * 256 + 1 * j.val = j.val; omega
  · -- bias window 3: one block, the single row
    show V (F := Ideal) m c main_v29 (((cfg0.win 3).blk t).view.emb (ix2 (0 : Fin 1) j)) = _
    refine Eq.trans (congrArg _ (funext fun a => Fin.ext ?_)) (bl_apply m c j)
    match a with
    | ⟨0, _⟩ => show win0_3.index t (0 : Fin 2) * 1 + 1 * 0 = 0; omega
    | ⟨1, _⟩ => show win0_3.index t (1 : Fin 2) * 256 + 1 * j.val = j.val; omega
  · -- table window 4: one block, the whole table
    show V (F := Ideal) m c main_v24 (((cfg0.win 4).blk t).view.emb (ix2 k j)) = _
    rw [wr_eq m c]
    refine congrArg _ (funext fun a => Fin.ext ?_)
    match a with
    | ⟨0, _⟩ => show win0_4.index t (0 : Fin 2) * 256 + 1 * k.val = k.val; omega
    | ⟨1, _⟩ => show win0_4.index t (1 : Fin 2) * 256 + 1 * j.val = j.val; omega
  · -- table window 5: one block, the whole table
    show V (F := Ideal) m c main_v25 (((cfg0.win 5).blk t).view.emb (ix2 k j)) = _
    rw [wa_eq m c]
    refine congrArg _ (funext fun a => Fin.ext ?_)
    match a with
    | ⟨0, _⟩ => show win0_5.index t (0 : Fin 2) * 256 + 1 * k.val = k.val; omega
    | ⟨1, _⟩ => show win0_5.index t (1 : Fin 2) * 128 + 1 * j.val = j.val; omega
  · -- bias window 6: one block, the single row
    show V (F := Ideal) m c main_v30 (((cfg0.win 6).blk t).view.emb (ix2 (0 : Fin 1) j)) = _
    refine Eq.trans (congrArg _ (funext fun a => Fin.ext ?_)) (ba_apply m c j)
    match a with
    | ⟨0, _⟩ => show win0_6.index t (0 : Fin 2) * 1 + 1 * 0 = 0; omega
    | ⟨1, _⟩ => show win0_6.index t (1 : Fin 2) * 128 + 1 * j.val = j.val; omega
  · -- table window 7: one block, the whole table
    show V (F := Ideal) m c main_v26 (((cfg0.win 7).blk t).view.emb (ix2 k j)) = _
    rw [w1_eq m c]
    refine congrArg _ (funext fun a => Fin.ext ?_)
    match a with
    | ⟨0, _⟩ => show win0_7.index t (0 : Fin 2) * 128 + 1 * k.val = k.val; omega
    | ⟨1, _⟩ => show win0_7.index t (1 : Fin 2) * 64 + 1 * j.val = j.val; omega
  · -- bias window 8: one block, the single row
    show V (F := Ideal) m c main_v31 (((cfg0.win 8).blk t).view.emb (ix2 (0 : Fin 1) j)) = _
    refine Eq.trans (congrArg _ (funext fun a => Fin.ext ?_)) (b1_apply m c j)
    match a with
    | ⟨0, _⟩ => show win0_8.index t (0 : Fin 2) * 1 + 1 * 0 = 0; omega
    | ⟨1, _⟩ => show win0_8.index t (1 : Fin 2) * 64 + 1 * j.val = j.val; omega
  · -- table window 9: one block, the whole table
    show V (F := Ideal) m c main_v27 (((cfg0.win 9).blk t).view.emb (ix2 k j)) = _
    rw [w2_eq m c]
    refine congrArg _ (funext fun a => Fin.ext ?_)
    match a with
    | ⟨0, _⟩ => show win0_9.index t (0 : Fin 2) * 64 + 1 * k.val = k.val; omega
    | ⟨1, _⟩ => show win0_9.index t (1 : Fin 2) * 32 + 1 * j.val = j.val; omega
  · -- bias window 10: one block, the single row
    show V (F := Ideal) m c main_v32 (((cfg0.win 10).blk t).view.emb (ix2 (0 : Fin 1) j)) = _
    refine Eq.trans (congrArg _ (funext fun a => Fin.ext ?_)) (b2_apply m c j)
    match a with
    | ⟨0, _⟩ => show win0_10.index t (0 : Fin 2) * 1 + 1 * 0 = 0; omega
    | ⟨1, _⟩ => show win0_10.index t (1 : Fin 2) * 32 + 1 * j.val = j.val; omega
  · -- table window 11: one block, the whole table
    show V (F := Ideal) m c main_v28 (((cfg0.win 11).blk t).view.emb (ix2 k j)) = _
    rw [w3_eq m c]
    refine congrArg _ (funext fun a => Fin.ext ?_)
    match a with
    | ⟨0, _⟩ => show win0_11.index t (0 : Fin 2) * 32 + 1 * k.val = k.val; omega
    | ⟨1, _⟩ => show win0_11.index t (1 : Fin 2) * 3 + 1 * j.val = j.val; omega
  · -- bias window 12: one block, the single row
    show V (F := Ideal) m c main_v33 (((cfg0.win 12).blk t).view.emb (ix2 (0 : Fin 1) j)) = _
    refine Eq.trans (congrArg _ (funext fun a => Fin.ext ?_)) (b3_apply m c j)
    match a with
    | ⟨0, _⟩ => show win0_12.index t (0 : Fin 2) * 1 + 1 * 0 = 0; omega
    | ⟨1, _⟩ => show win0_12.index t (1 : Fin 2) * 3 + 1 * j.val = j.val; omega
  · -- the output feature: the output's blocks span all three columns
    refine Fin.ext ?_
    show q.val = win0_13.index t (1 : Fin 2) * 3 + 1 * q.val
    omega

/-- An index of the result is in point `t`'s block iff each coordinate is in the block's range on its axis. -/
theorem mem_blk (t : Fin cfg0.N) (i : S10000x3.Idx) :
    i ∈ ((cfg0.win 13).blk t).view.set ↔ ∀ a : Fin 2, win0_13.index t a * S2000x3.size a ≤ (i a).val ∧ (i a).val < win0_13.index t a * S2000x3.size a + S2000x3.size a := by
  show i ∈ ((View.whole main_v34).slice (win0_13.rect t)).set ↔ _
  rw [View.set_slice_whole, Rect.mem_set_unit]
  exact Iff.rfl

/-- The five blocks tile the result: node `r` is in the block of the point whose block row is `r / 2000`. -/
theorem cover (i : S10000x3.Idx) : ∃ t : Fin cfg0.N, (cfg0.win 13).flush t = true ∧ i ∈ ((cfg0.win 13).blk t).view.set := by
  have hi0 : (i 0).val < 10000 := (i 0).isLt
  have hi1 : (i 1).val < 3 := (i 1).isLt
  obtain ⟨t, ht⟩ := idx_onto ⟨(i 0).val / 2000, by omega⟩
  have q0 : win0_13.index t (0 : Fin 2) = (i 0).val / 2000 := congrFun ht 0
  have q1 : win0_13.index t (1 : Fin 2) = 0 := congrFun ht 1
  refine ⟨t, flush0_13 t, ?_⟩
  rw [mem_blk]
  intro a
  match a with
  | ⟨0, _⟩ => show win0_13.index t (0 : Fin 2) * 2000 ≤ (i 0).val ∧ (i 0).val < win0_13.index t (0 : Fin 2) * 2000 + 2000; omega
  | ⟨1, _⟩ => show win0_13.index t (1 : Fin 2) * 3 ≤ (i 1).val ∧ (i 1).val < win0_13.index t (1 : Fin 2) * 3 + 3; omega

/-- THE ARRAY after the run is `result`. -/
theorem final (c : Dev nD) : (dats m 0 c).arrAt 13 cfg0.N = result m c :=
  (dats m 0 c).arrAt_eq_of_cover 13 (result m c) (fun t _ => flushed_eq m c t) cover

end Cert.KernelArray

end
-- ==== Proof.RefRow.lean ====
/-
  What the reference computes, read at a node `r` and an output feature `q`: the network of `RowMlp.rowOut` applied to
  row `r` of the averaged neighbour features (the stage written by the reference's division, kept as it is) and row `r`
  of the nodes' own features, with each weight table transposed to `[inputs, outputs]` (the reference's own transposes,
  kept as they are) and each bias vector read at the output feature.
-/
import proofs.«109666_j63402307224408_1_alg».proof.Proof.Gen.ReferenceIdeal.Read
import proofs.«109666_j63402307224408_1_alg».proof.Proof.RowMlp

noncomputable section

namespace Cert.RefRow

open Idealize.ShloMosaic Idealize.ShloMosaic.ValueIdx Cert.RowMlp Cert.DenseLayer
open Cert.ReferenceIdeal Cert.ReferenceIdeal.Read Cert.ReferenceIdeal.Facts₀ Cert.ReferenceIdeal.Facts
open scoped BigOperators

/-- The programs' zero word as an extended real. -/
abbrev z : EReal := Ideal.ofBits .f32 0x00000000#32

/-- The reference's result at `(r, q)` is the network on row `r`. -/
theorem ref_apply (x0 : (⟨S10000x256, .f32⟩ : BufTy).Contents (Elt Ideal)) (x1 : (⟨S2x320000, .i32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S128x256, .f32⟩ : BufTy).Contents (Elt Ideal)) (x6 : (⟨S128, .f32⟩ : BufTy).Contents (Elt Ideal)) (x7 : (⟨S64x128, .f32⟩ : BufTy).Contents (Elt Ideal)) (x8 : (⟨S64, .f32⟩ : BufTy).Contents (Elt Ideal)) (x9 : (⟨S32x64, .f32⟩ : BufTy).Contents (Elt Ideal)) (x10 : (⟨S32, .f32⟩ : BufTy).Contents (Elt Ideal)) (x11 : (⟨S3x32, .f32⟩ : BufTy).Contents (Elt Ideal)) (x12 : (⟨S3, .f32⟩ : BufTy).Contents (Elt Ideal))
    (r : Fin 10000) (q : Fin 3) :
    val_main_v54 (F := Ideal) x0 x1 x2 x3 x4 x5 x6 x7 x8 x9 x10 x11 x12 (ix2 r q)
      = rowOut z (fun k => val_main_v22 (F := Ideal) x0 x1 (ix2 r k)) (fun k => x0 (ix2 r k))
          (fun k j => val_main_v23 (F := Ideal) x2 (ix2 k j)) (fun j => x3 (ix1 j))
          (fun k j => val_main_v28 (F := Ideal) x4 (ix2 k j))
          (fun k j => val_main_v32 (F := Ideal) x5 (ix2 k j)) (fun j => x6 (ix1 j))
          (fun k j => val_main_v38 (F := Ideal) x7 (ix2 k j)) (fun j => x8 (ix1 j))
          (fun k j => val_main_v44 (F := Ideal) x9 (ix2 k j)) (fun j => x10 (ix1 j))
          (fun k j => val_main_v50 (F := Ideal) x11 (ix2 k j)) (fun j => x12 (ix1 j)) q := by
  unfold rowOut
  unfold val_main_v54 val_main_v51 val_main_v53 val_main_v52
  refine (host_lin_apply dot_S10000x32_S32x3_S10000x3_1_0_0_1_n_n rfl rfl rfl rfl lhs_main_v51_0 rhs_main_v51_1 _ _ x12 _ _ r q).trans
    (lin_congr _ _ _ fun k4 => ?_)
  unfold val_main_v49 val_main_call3_v0 val_main_call3_cst
  refine (host_act_apply _ _ r k4).trans (act_congr _ _ fun j4 => ?_)
  unfold val_main_v48 val_main_v45 val_main_v47 val_main_v46
  refine (host_lin_apply dot_S10000x64_S64x32_S10000x32_1_0_0_1_n_n rfl rfl rfl rfl lhs_main_v45_0 rhs_main_v45_1 _ _ x10 _ _ r j4).trans
    (lin_congr _ _ _ fun k3 => ?_)
  unfold val_main_v43 val_main_call2_v0 val_main_call2_cst
  refine (host_act_apply _ _ r k3).trans (act_congr _ _ fun j3 => ?_)
  unfold val_main_v42 val_main_v39 val_main_v41 val_main_v40
  refine (host_lin_apply dot_S10000x128_S128x64_S10000x64_1_0_0_1_n_n rfl rfl rfl rfl lhs_main_v39_0 rhs_main_v39_1 _ _ x8 _ _ r j3).trans
    (lin_congr _ _ _ fun k2 => ?_)
  unfold val_main_v37 val_main_call1_v0 val_main_call1_cst
  refine (host_act_apply _ _ r k2).trans (act_congr _ _ fun j2 => ?_)
  unfold val_main_v36 val_main_v33 val_main_v35 val_main_v34
  refine (host_lin_apply dot_S10000x256_S256x128_S10000x128_1_0_0_1_n_n rfl rfl rfl rfl lhs_main_v33_0 rhs_main_v33_1 _ _ x6 _ _ r j2).trans
    (lin_congr _ _ _ fun k1 => ?_)
  unfold val_main_v31 val_main_call0_v0 val_main_call0_cst
  refine (host_act_apply _ _ r k1).trans (act_congr _ _ fun j1 => ?_)
  unfold val_main_v30 val_main_v27 val_main_v29 val_main_v24 val_main_v26 val_main_v25
  exact host_first_apply dot_S10000x256_S256x256_S10000x256_1_0_0_1_n_n rfl rfl rfl rfl lhs_main_v24_0 rhs_main_v24_1 (val_main_v22 (F := Ideal) x0 x1) x0
    (val_main_v23 (F := Ideal) x2) (val_main_v28 (F := Ideal) x4) x3 _ _ r j1

/-- THE REFERENCE'S RESULT ARRAY is `RowMlp.whole` of its averaging stage, the node features, its transposed tables and its
    bias vectors. -/
theorem ref_whole (x0 : (⟨S10000x256, .f32⟩ : BufTy).Contents (Elt Ideal)) (x1 : (⟨S2x320000, .i32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S128x256, .f32⟩ : BufTy).Contents (Elt Ideal)) (x6 : (⟨S128, .f32⟩ : BufTy).Contents (Elt Ideal)) (x7 : (⟨S64x128, .f32⟩ : BufTy).Contents (Elt Ideal)) (x8 : (⟨S64, .f32⟩ : BufTy).Contents (Elt Ideal)) (x9 : (⟨S32x64, .f32⟩ : BufTy).Contents (Elt Ideal)) (x10 : (⟨S32, .f32⟩ : BufTy).Contents (Elt Ideal)) (x11 : (⟨S3x32, .f32⟩ : BufTy).Contents (Elt Ideal)) (x12 : (⟨S3, .f32⟩ : BufTy).Contents (Elt Ideal)) :
    val_main_v54 (F := Ideal) x0 x1 x2 x3 x4 x5 x6 x7 x8 x9 x10 x11 x12
      = whole z (val_main_v22 (F := Ideal) x0 x1) x0 (val_main_v23 (F := Ideal) x2) (val_main_v28 (F := Ideal) x4)
          (fun j => x3 (ix1 j)) (val_main_v32 (F := Ideal) x5) (fun j => x6 (ix1 j))
          (val_main_v38 (F := Ideal) x7) (fun j => x8 (ix1 j)) (val_main_v44 (F := Ideal) x9) (fun j => x10 (ix1 j))
          (val_main_v50 (F := Ideal) x11) (fun j => x12 (ix1 j)) := by
  funext i
  obtain ⟨r, q, rfl⟩ : ∃ (r : Fin 10000) (q : Fin 3), i = ix2 r q := ⟨i 0, i 1, eq_ix2 i⟩
  exact ref_apply x0 x1 x2 x3 x4 x5 x6 x7 x8 x9 x10 x11 x12 r q

end Cert.RefRow

end
-- ==== Proof.lean ====
/-
  The certificate's claim: a graph layer that averages each node's incoming neighbour features, followed by a five-layer
  perceptron, computed by a kernel over blocks of 2000 nodes, against its array-at-once reference.

  Both programs first build the averaged neighbour features with the same host operations (gather the source rows, sum them
  into the destination rows, count the edges into each destination, divide by the count raised to at least one). The kernel
  then receives that array and the node features in five blocks of 2000 rows, with the six weight tables transposed to
  `[inputs, outputs]` and the five biases as rows, and computes on every row
  `relu((a·Wl + bl) + x·Wr)`, three more `relu(h·W + b)` layers and a last `h·W + b` to three outputs; the reference
  computes the same expression on the whole arrays. On extended reals a narrowing of the float format is the identity, a
  matrix product into a zero accumulator is the plain sum over the contracted feature, and the two programs take the same
  sums in the same grouping — so the results agree entry by entry with no use of finiteness: the kernel's array is
  `RowMlp.whole` (`KernelArray.final`: each point writes back its block of that function, and the five blocks tile the array)
  and so is the reference's (`RefRow.ref_whole`), of the same launch contents (`EntryArrays`). The three frames are the generated
  ones (the reference's is its generated run with the result dropped); the idealization rewrote nothing, so `preserves` is trivial.
-/
import proofs.«109666_j63402307224408_1_alg».proof.Defs
import proofs.«109666_j63402307224408_1_alg».proof.Proof.Gen.Kernel
import proofs.«109666_j63402307224408_1_alg».proof.Proof.Gen.Kernel.Skeleton
import proofs.«109666_j63402307224408_1_alg».proof.Proof.Gen.Kernel.Launch
import proofs.«109666_j63402307224408_1_alg».proof.Proof.Gen.Kernel.Points
import proofs.«109666_j63402307224408_1_alg».proof.Proof.Gen.Kernel.Frame
import proofs.«109666_j63402307224408_1_alg».proof.Proof.Gen.KernelIdeal
import proofs.«109666_j63402307224408_1_alg».proof.Proof.Gen.KernelIdeal.Skeleton
import proofs.«109666_j63402307224408_1_alg».proof.Proof.Gen.KernelIdeal.Launch
import proofs.«109666_j63402307224408_1_alg».proof.Proof.Gen.KernelIdeal.Points
import proofs.«109666_j63402307224408_1_alg».proof.Proof.Gen.KernelIdeal.Frame
import proofs.«109666_j63402307224408_1_alg».proof.Proof.Gen.ReferenceIdeal
import proofs.«109666_j63402307224408_1_alg».proof.Proof.Gen.KernelIdeal.Value
import proofs.«109666_j63402307224408_1_alg».proof.Proof.Gen.ReferenceIdeal.Run
import proofs.«109666_j63402307224408_1_alg».proof.Proof.Gen.ReferenceIdeal.Read
import proofs.«109666_j63402307224408_1_alg».proof.Proof.Gen.Pre_finite_inputs
import proofs.«109666_j63402307224408_1_alg».proof.Proof.KernelArray
import proofs.«109666_j63402307224408_1_alg».proof.Proof.RefRow
import Idealize.ShloMosaic.Adequacy
import Idealize.ShloMosaic.Init

set_option maxRecDepth 16384

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does its reading on extended reals. -/
theorem frame_kernelIdeal : Cert.frame_KernelIdeal := fun m ρ _ => Cert.KernelIdeal.Gen.frame m ρ

/-- The reference is host operations only: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the thirteen arguments both programs end with the result array `RowMlp.whole` of the same
    launch contents. -/
theorem algebraic : Cert.algebraic_KernelIdeal_ReferenceIdeal := by
  intro m ρ m' ρ' _ hagree
  refine ⟨fun c => Cert.KernelArray.result m c, ?_, ?_⟩
  · exact (θ_run Cert.KernelIdeal.defs _ _).mono
      (fun r h c => ⟨(h c).1.trans (Cert.KernelArray.final m c), (h c).2⟩) (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11, a12⟩ := hagree c
    rw [Cert.ReferenceIdeal.Read.val_main_v54_eq, Cert.RefRow.ref_whole, a0, a1, a2, a3, a4, a5, a6, a7, a8, a9, a10, a11, a12]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
